-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel

variable [Facts]

def fn {F : FTy → Type} [FloatOps F] (main_arg0 : FVec F S2x2048x512 .f32) (main_arg1 : FVec F S2x2048x512 .f32) (main_arg2 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  main_v13
-- ==== Kernel.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S16x2048x64 : Shape := ⟨3, ![16, 2048, 64]⟩
abbrev S1x1024x64 : Shape := ⟨3, ![1, 1024, 64]⟩
abbrev S1x2048x64 : Shape := ⟨3, ![1, 2048, 64]⟩
abbrev S2048x64 : Shape := ⟨2, ![2048, 64]⟩
abbrev S1x256x64 : Shape := ⟨3, ![1, 256, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 8
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .bf16⟩
  | .hbm, ⟨4, _⟩ => ⟨S2x2048x8x64, .bf16⟩
  | .hbm, ⟨5, _⟩ => ⟨S2x8x2048x64, .bf16⟩
  | .hbm, ⟨6, _⟩ => ⟨S16x2048x64, .bf16⟩
  | .hbm, ⟨7, _⟩ => ⟨S2x2048x512, .bf16⟩
  | .hbm, ⟨8, _⟩ => ⟨S2x2048x8x64, .bf16⟩
  | .hbm, ⟨9, _⟩ => ⟨S2x8x2048x64, .bf16⟩
  | .hbm, ⟨10, _⟩ => ⟨S16x2048x64, .bf16⟩
  | .hbm, ⟨11, _⟩ => ⟨S2x2048x512, .bf16⟩
  | .hbm, ⟨12, _⟩ => ⟨S2x2048x8x64, .bf16⟩
  | .hbm, ⟨13, _⟩ => ⟨S2x8x2048x64, .bf16⟩
  | .hbm, ⟨14, _⟩ => ⟨S16x2048x64, .bf16⟩
  | .hbm, ⟨15, _⟩ => ⟨S16x2048x64, .f32⟩
  | .hbm, ⟨16, _⟩ => ⟨S2x8x2048x64, .f32⟩
  | .hbm, ⟨17, _⟩ => ⟨S2x2048x8x64, .f32⟩
  | .hbm, ⟨18, _⟩ => ⟨S2x2048x512, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_mult1 : BitVec 32 :=
  let c0_i32 : BitVec 32 := 0#32
  let c256_i32 : BitVec 32 := 256#32
  let v4 : BitVec 32 := Scalar.muli c0_i32 c256_i32
  v4
def k0_off1 (c0_i32 : BitVec 32) : Fin 3 → Nat :=
  let c0_5 : Index := 0#32
  let c256_i32 : BitVec 32 := 256#32
  let v4 : BitVec 32 := Scalar.muli c0_i32 c256_i32
  let v5 : BitVec 32 := v4
  let v6 : Index := Scalar.indexCast v5
  let c0_6 : Index := 0#32
  ![0, v6.toNat, 0]
def k0_mult2 : BitVec 32 :=
  let c1_i32 : BitVec 32 := 1#32
  let c256_i32_13 : BitVec 32 := 256#32
  let v27 : BitVec 32 := Scalar.muli c1_i32 c256_i32_13
  v27
def k0_mult3 : BitVec 32 :=
  let c2_i32 : BitVec 32 := 2#32
  let c256_i32_23 : BitVec 32 := 256#32
  let v50 : BitVec 32 := Scalar.muli c2_i32 c256_i32_23
  v50
def k0_mult4 : BitVec 32 :=
  let c3_i32 : BitVec 32 := 3#32
  let c256_i32_33 : BitVec 32 := 256#32
  let v73 : BitVec 32 := Scalar.muli c3_i32 c256_i32_33
  v73
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S2x2048x512_S2x2048x8x64 : S2x2048x512.ShapeCasts S2x2048x8x64
  transposes_S2x2048x8x64_S2x8x2048x64_0_2_1_3 : S2x2048x8x64.Transposes [0, 2, 1, 3] S2x8x2048x64
  shapeCasts_S2x8x2048x64_S16x2048x64 : S2x8x2048x64.ShapeCasts S16x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x256x64 : 0 < S1x256x64.numel
  shapeCasts_S1x256x64_S256x64 : S1x256x64.ShapeCasts S256x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  shapeCasts_S256x64_S1x256x64 : S256x64.ShapeCasts S1x256x64
  shapeCasts_S16x2048x64_S2x8x2048x64 : S16x2048x64.ShapeCasts S2x8x2048x64
  transposes_S2x8x2048x64_S2x2048x8x64_0_2_1_3 : S2x8x2048x64.Transposes [0, 2, 1, 3] S2x2048x8x64
  shapeCasts_S2x2048x8x64_S2x2048x512 : S2x2048x8x64.ShapeCasts S2x2048x512
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x64.size a ≤ S1x1024x64.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .bf16 = 32 ∨ (Rect.block (s := S16x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .bf16 = 32 ∨ (Rect.block (s := S16x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .bf16 = 32 ∨ (Rect.block (s := S16x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v3) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x8x64, .f32⟩
  | .hbm, ⟨4, _⟩ => ⟨S2x8x2048x64, .f32⟩
  | .hbm, ⟨5, _⟩ => ⟨S2x2048x8x64, .f32⟩
  | .hbm, ⟨6, _⟩ => ⟨S2x8x2048x64, .f32⟩
  | .hbm, ⟨7, _⟩ => ⟨S2x2048x8x64, .f32⟩
  | .hbm, ⟨8, _⟩ => ⟨S2x8x2048x64, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048, .f32⟩
  | .hbm, ⟨15, _⟩ => ⟨S_, .f32⟩
  | .hbm, ⟨16, _⟩ => ⟨S2x8x2048, .f32⟩
  | .hbm, ⟨17, _⟩ => ⟨S2x8x2048, .f32⟩
  | .hbm, ⟨18, _⟩ => ⟨S2x8x2048x1, .f32⟩
  | .hbm, ⟨19, _⟩ => ⟨S2x8x2048x2048, .f32⟩
  | .hbm, ⟨20, _⟩ => ⟨S2x8x2048x2048, .f32⟩
  | .hbm, ⟨21, _⟩ => ⟨S2x8x2048x2048, .f32⟩
  | .hbm, ⟨22, _⟩ => ⟨S_, .f32⟩
  | .hbm, ⟨23, _⟩ => ⟨S2x8x2048, .f32⟩
  | .hbm, ⟨24, _⟩ => ⟨S2x8x2048x1, .f32⟩
  | .hbm, ⟨25, _⟩ => ⟨S2x8x2048x2048, .f32⟩
  | .hbm, ⟨26, _⟩ => ⟨S2x8x2048x2048, .f32⟩
  | .hbm, ⟨27, _⟩ => ⟨S2x8x2048x64, .f32⟩
  | .hbm, ⟨28, _⟩ => ⟨S2x2048x8x64, .f32⟩
  | .hbm, ⟨29, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S2x2048x512_S2x2048x8x64 : S2x2048x512.ShapeCasts S2x2048x8x64
  transposes_S2x2048x8x64_S2x8x2048x64_0_2_1_3 : S2x2048x8x64.Transposes [0, 2, 1, 3] S2x8x2048x64
  bcast_S_S2x8x2048x2048 : S_.BroadcastsInDim S2x8x2048x2048 (![] : Fin 0 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x2048x64_S2x2048x8x64_0_2_1_3 : S2x8x2048x64.Transposes [0, 2, 1, 3] S2x2048x8x64
  shapeCasts_S2x2048x8x64_S2x2048x512 : S2x2048x8x64.ShapeCasts S2x2048x512
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.LibSoftmaxLaw.lean ====
/-
  Softmax attention over one query row, on the extended reals, and the law that lets the normalisation be applied
  before or after the weighted sum of the values.

  For a query row `q`, keys `k j` and a scale `c` the scores are `s j = (∑ d, q d · k j d) · c`; the weight of key `j`
  is `exp (s j − M)` with `M` the largest score (folded from `-∞`), and the row's result is the weighted sum of the
  values divided by the sum of the weights.  Dividing every weight first and summing afterwards gives the same number
  whenever the scores and the values are real: then `M` is real, every weight is a positive real, their sum is a positive
  real, and over the reals division distributes over the sum.  (At infinite entries it need not: the extended reals do not
  distribute.)
-/
import Idealize.ShloMosaic.PureOps.Ideal

noncomputable section

namespace Cert.Softmax

open Idealize.ShloMosaic

variable {J D : Type} [Fintype J] [Fintype D]

/-- The scaled scores of one query row against every key: `(∑ d, q d · k j d) · c`. -/
def scores (c : EReal) (q : D → EReal) (k : J → D → EReal) : J → EReal :=
  fun j => (∑ d, q d * k j d) * c

/-- The largest score, folded from `b` (the programs fold from `-∞`). -/
def top (b : EReal) (s : J → EReal) : EReal := Finset.univ.fold max b s

/-- The unnormalised weight of key `j`: `exp (s j − top)`. -/
def weight (b : EReal) (s : J → EReal) (j : J) : EReal := Ideal.exp (s j - top b s)

/-- The weighted sum of the values, normalised AFTER the sum. -/
def attnAfter (b : EReal) (s v : J → EReal) : EReal :=
  Ideal.div (∑ j, weight b s j * v j) (∑ j, weight b s j)

/-- The weighted sum of the values, every weight normalised BEFORE the sum. -/
def attnBefore (b : EReal) (s v : J → EReal) : EReal :=
  ∑ j, Ideal.div (weight b s j) (∑ j', weight b s j') * v j

/-- The coercion of the reals into the extended reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Folding the maximum from `b` and then taking the maximum with `b` once more changes nothing. -/
theorem max_top (b : EReal) (s : J → EReal) : max b (top b s) = top b s :=
  max_eq_right ((Finset.le_fold_max b).mpr (Or.inl le_rfl))

/-- Real factors give real scores. -/
theorem scores_coe (c : ℝ) (q : D → ℝ) (k : J → D → ℝ) (j : J) :
    scores (c : EReal) (fun d => (q d : EReal)) (fun j d => (k j d : EReal)) j
      = (((∑ d, q d * k j d) * c : ℝ) : EReal) := by
  unfold scores
  rw [EReal.coe_mul, coe_sum]
  exact congrArg (· * (c : EReal)) (Finset.sum_congr rfl fun d _ => (EReal.coe_mul _ _).symm)

/-- The largest of finitely many (at least one) real scores, folded from `-∞`, is a real number. -/
theorem top_coe [Nonempty J] (s : J → ℝ) : ∃ r : ℝ, top ⊥ (fun j => (s j : EReal)) = (r : EReal) := by
  have hb : ⊥ < top ⊥ (fun j => (s j : EReal)) := by
    unfold top
    rw [Finset.lt_fold_max]
    exact Or.inr ⟨Classical.arbitrary J, Finset.mem_univ _, EReal.bot_lt_coe _⟩
  have ht : top ⊥ (fun j => (s j : EReal)) < ⊤ := by
    unfold top
    rw [Finset.fold_max_lt]
    exact ⟨bot_lt_top, fun j _ => EReal.coe_lt_top _⟩
  exact ⟨_, (EReal.coe_toReal ht.ne hb.ne').symm⟩

/-- THE LAW: over real scores and real values, normalising after the weighted sum and normalising every weight before it
    give the same extended real. -/
theorem attnAfter_eq_attnBefore [Nonempty J] (s v : J → ℝ) :
    attnAfter ⊥ (fun j => (s j : EReal)) (fun j => (v j : EReal))
      = attnBefore ⊥ (fun j => (s j : EReal)) (fun j => (v j : EReal)) := by
  obtain ⟨r, hr⟩ := top_coe s
  have hw : ∀ j, weight ⊥ (fun j => (s j : EReal)) j = ((Real.exp (s j - r) : ℝ) : EReal) := fun j => by
    unfold weight
    rw [hr, ← EReal.coe_sub]
    rfl
  have hl : (∑ j, weight ⊥ (fun j => (s j : EReal)) j) = ((∑ j, Real.exp (s j - r) : ℝ) : EReal) := by
    rw [coe_sum]; exact Finset.sum_congr rfl fun j _ => hw j
  have hpos : (∑ j, Real.exp (s j - r) : ℝ) ≠ 0 :=
    (Finset.sum_pos (fun j _ => Real.exp_pos _) Finset.univ_nonempty).ne'
  unfold attnAfter attnBefore
  calc Ideal.div (∑ j, weight ⊥ (fun j => (s j : EReal)) j * (v j : EReal)) (∑ j, weight ⊥ (fun j => (s j : EReal)) j)
      = (∑ j, ((Real.exp (s j - r) * v j : ℝ) : EReal)) * ((1 / (∑ j, Real.exp (s j - r)) : ℝ) : EReal) := by
        rw [hl, Ideal.div_coe hpos]
        exact congrArg (· * ((1 / (∑ j, Real.exp (s j - r)) : ℝ) : EReal))
          (Finset.sum_congr rfl fun j _ => by rw [hw, EReal.coe_mul])
    _ = (((∑ j, Real.exp (s j - r) * v j) * (1 / (∑ j, Real.exp (s j - r))) : ℝ) : EReal) := by
        rw [← coe_sum, ← EReal.coe_mul]
    _ = ((∑ j, Real.exp (s j - r) * (1 / (∑ j, Real.exp (s j - r))) * v j : ℝ) : EReal) := by
        congr 1
        rw [Finset.sum_mul]
        exact Finset.sum_congr rfl fun j _ => by ring
    _ = ∑ j, ((Real.exp (s j - r) * (1 / (∑ j, Real.exp (s j - r))) * v j : ℝ) : EReal) := coe_sum _ _
    _ = ∑ j, Ideal.div (weight ⊥ (fun j => (s j : EReal)) j) (∑ j', weight ⊥ (fun j => (s j : EReal)) j') * (v j : EReal) := by
        refine Finset.sum_congr rfl fun j _ => ?_
        rw [hl, Ideal.div_coe hpos, hw, EReal.coe_mul, EReal.coe_mul]

end Cert.Softmax

end
-- ==== Proof.Consts.lean ====
/-
  The float constants of the programs whose VALUE the proof needs, as the extended reals their patterns denote:
  the initial value of the row maximum is `-∞`, the bound the precondition compares against is `+∞`, and the scale `1/8 = 64^(-1/2)` is a real number.  (The zero the sums
  start from is the library's `Ideal.ofBits_zero_f32`.)  Stated once, here, so that the patterns are opened in one place.
-/
import Idealize.ShloMosaic.PureOps.Ideal

noncomputable section

namespace Cert.Consts

open Idealize.ShloMosaic

/-- The pattern the row maximum is folded from denotes `-∞`. -/
theorem ofBits_neg_inf : Ideal.ofBits .f32 0xFF800000#32 = ⊥ := by
  simp [Ideal.ofBits, Ideal.ieee]

/-- The scale `0.125` denotes the real `1/8`. -/
theorem ofBits_eighth : Ideal.ofBits .f32 0x3E000000#32 = (((1 : ℝ) / 8 : ℝ) : EReal) := by
  simp [Ideal.ofBits, Ideal.ieee, -EReal.coe_mul]; norm_num

/-- The pattern the precondition compares absolute values against denotes `+∞`. -/
theorem ofBits_pos_inf : Ideal.ofBits .f32 0x7F800000#32 = ⊤ := by
  simp [Ideal.ofBits, Ideal.ieee]

end Cert.Consts

end
-- ==== Proof.AttnSpec.lean ====
/-
  The function both programs compute: multi-head softmax attention over `[2, 2048, 512]` arrays read as
  batch × position × (8 heads of 64 features).

  For batch `b`, head `h`, query position `n` and feature `d`, the query row is `Q (b, n, 64h + ·)`, key `j` is
  `K (b, j, 64h + ·)`, and the value column is `V (b, ·, 64h + d)`; the entry `(b, n, 64h + d)` of the result is the
  softmax-weighted sum of that value column, with scores scaled by `1/8`.  One program divides by the sum of the weights
  after the weighted sum (`headAfter`), the other divides every weight first (`headBefore`); over finite arrays the two
  agree (`head_eq`).
-/
import Idealize.ShloMosaic.Lib.ValueIdx
import proofs.«177805_j21045339750416_2_alg».proof.Proof.LibSoftmaxLaw
import proofs.«177805_j21045339750416_2_alg».proof.Proof.Consts

noncomputable section

namespace Cert.Attn

open Idealize.ShloMosaic Idealize.ShloMosaic.ValueIdx

/-- The shape of the three arguments and of the result. -/
abbrev SArg : Shape := ⟨3, ![2, 2048, 512]⟩

/-- Feature `d` of head `h` sits in column `64h + d`. -/
def col (h : Fin 8) (d : Fin 64) : Fin 512 := ⟨h.val * 64 + d.val, by have := h.isLt; have := d.isLt; omega⟩
/-- The head a column belongs to, -/
def headOf (c : Fin 512) : Fin 8 := ⟨c.val / 64, by have := c.isLt; omega⟩
/-- and its feature within the head. -/
def featOf (c : Fin 512) : Fin 64 := ⟨c.val % 64, Nat.mod_lt _ (by decide)⟩

theorem col_headOf_featOf (c : Fin 512) : col (headOf c) (featOf c) = c :=
  Fin.ext (by show c.val / 64 * 64 + c.val % 64 = c.val; omega)
theorem headOf_col (h : Fin 8) (d : Fin 64) : headOf (col h d) = h :=
  Fin.ext (by show (h.val * 64 + d.val) / 64 = h.val; have := d.isLt; omega)
theorem featOf_col (h : Fin 8) (d : Fin 64) : featOf (col h d) = d :=
  Fin.ext (by show (h.val * 64 + d.val) % 64 = d.val; have := d.isLt; omega)

/-- The value the row maximum is folded from (the pattern of `-∞`), and the scale (the pattern of `1/8`). -/
def negInf : EReal := Ideal.ofBits .f32 0xFF800000#32
def scale : EReal := Ideal.ofBits .f32 0x3E000000#32

/-- One head's query row, its keys, and one column of its values. -/
def qrow (Q : SArg.Idx → EReal) (b : Fin 2) (h : Fin 8) (n : Fin 2048) : Fin 64 → EReal := fun d => Q (ix3 b n (col h d))
def keys (K : SArg.Idx → EReal) (b : Fin 2) (h : Fin 8) : Fin 2048 → Fin 64 → EReal := fun j d => K (ix3 b j (col h d))
def vals (V : SArg.Idx → EReal) (b : Fin 2) (h : Fin 8) (d : Fin 64) : Fin 2048 → EReal := fun j => V (ix3 b j (col h d))

/-- The entry for `(b, h, n, d)`, normalised after the weighted sum. -/
def headAfter (Q K V : SArg.Idx → EReal) (b : Fin 2) (h : Fin 8) (n : Fin 2048) (d : Fin 64) : EReal :=
  Softmax.attnAfter negInf (Softmax.scores scale (qrow Q b h n) (keys K b h)) (vals V b h d)

/-- The same entry with every weight normalised before the sum. -/
def headBefore (Q K V : SArg.Idx → EReal) (b : Fin 2) (h : Fin 8) (n : Fin 2048) (d : Fin 64) : EReal :=
  Softmax.attnBefore negInf (Softmax.scores scale (qrow Q b h n) (keys K b h)) (vals V b h d)

/-- The result array: entry `(b, n, c)` is head `c / 64`'s entry for position `n` and feature `c % 64`. -/
def result (Q K V : SArg.Idx → EReal) : SArg.Idx → EReal :=
  fun i => headAfter Q K V (i 0) (headOf (i 2)) (i 1) (featOf (i 2))

theorem result_apply (Q K V : SArg.Idx → EReal) (b : Fin 2) (n : Fin 2048) (h : Fin 8) (d : Fin 64) :
    result Q K V (ix3 b n (col h d)) = headAfter Q K V b h n d := by
  show headAfter Q K V b (headOf (col h d)) n (featOf (col h d)) = _
  rw [headOf_col, featOf_col]

/-- Over arrays of real numbers the two normalisation orders give the same entry: the scores are real (the scale is
    `1/8`), so the law of the softmax row applies. -/
theorem head_eq (Q K V : SArg.Idx → EReal) (hQ : ∀ i, ∃ r : ℝ, Q i = (r : EReal)) (hK : ∀ i, ∃ r : ℝ, K i = (r : EReal))
    (hV : ∀ i, ∃ r : ℝ, V i = (r : EReal)) (b : Fin 2) (h : Fin 8) (n : Fin 2048) (d : Fin 64) :
    headAfter Q K V b h n d = headBefore Q K V b h n d := by
  choose Q' hQ' using hQ
  choose K' hK' using hK
  choose V' hV' using hV
  have hs : Softmax.scores scale (qrow Q b h n) (keys K b h)
      = fun j => (((∑ dd, Q' (ix3 b n (col h dd)) * K' (ix3 b j (col h dd))) * ((1 : ℝ) / 8) : ℝ) : EReal) := by
    funext j
    refine Eq.trans ?_ (Softmax.scores_coe ((1 : ℝ) / 8) (fun dd => Q' (ix3 b n (col h dd)))
      (fun j dd => K' (ix3 b j (col h dd))) j)
    unfold scale qrow keys
    rw [Consts.ofBits_eighth]
    simp only [hQ', hK']
  have hv : vals V b h d = fun j => ((V' (ix3 b j (col h d)) : ℝ) : EReal) := funext fun j => hV' _
  unfold headAfter headBefore
  rw [hs, hv, show negInf = ⊥ from Consts.ofBits_neg_inf]
  exact Softmax.attnAfter_eq_attnBefore _ _

end Cert.Attn

end
-- ==== Proof.RefValue.lean ====
/-
  The reference program's result, entry by entry: it is the attention entry with every weight normalised before the sum.

  Read one stage at a time at the coordinates `(b, h, n, ·)` of the head-major arrays: the head split reads
  `x (b, n, 64h + d)`; the first contraction and the scale give the scores of row `n` of head `(b, h)`; the maximum
  over the keys is the fold of `max` from `-∞` (taking the maximum with `-∞` once more changes nothing); the
  exponentials are the weights, their sum the normaliser; the second contraction is the sum over the keys of the normalised
  weights times the values; and the merge of the heads puts entry `(b, h, n, d)` at `(b, n, 64h + d)`.
-/
import proofs.«177805_j21045339750416_2_alg».proof.Proof.Gen.ReferenceIdeal.Read
import proofs.«177805_j21045339750416_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.Attn

/-- The head split of an argument, at `(b, h, n, d)`: the argument at `(b, n, 64h + d)`. -/
theorem split_at (x : (⟨S2x2048x512, .f32⟩ : BufTy).Contents (Elt Ideal)) (b : Fin 2) (h : Fin 8) (n : Fin 2048) (d : Fin 64) :
    val_main_v1 (F := Ideal) x (ix4 b h n d) = x (ix3 b n (col h d)) := by
  rw [val_main_v1_apply, val_main_v0_apply]
  refine congrArg x (funext fun a => Fin.ext ?_)
  have hb := b.isLt; have hh := h.isLt; have hn := n.isLt; have hd := d.isLt
  match a with
  | ⟨0, _⟩ => show (((b.val * 2048 + n.val) * 8 + h.val) * 64 + d.val) / 1048576 = b.val; omega
  | ⟨1, _⟩ => show (((b.val * 2048 + n.val) * 8 + h.val) * 64 + d.val) / 512 % 2048 = n.val; omega
  | ⟨2, _⟩ => show (((b.val * 2048 + n.val) * 8 + h.val) * 64 + d.val) % 512 = h.val * 64 + d.val; omega

theorem split_key_at (x : (⟨S2x2048x512, .f32⟩ : BufTy).Contents (Elt Ideal)) (b : Fin 2) (h : Fin 8) (n : Fin 2048) (d : Fin 64) :
    val_main_v3 (F := Ideal) x (ix4 b h n d) = x (ix3 b n (col h d)) := split_at x b h n d

theorem split_value_at (x : (⟨S2x2048x512, .f32⟩ : BufTy).Contents (Elt Ideal)) (b : Fin 2) (h : Fin 8) (n : Fin 2048) (d : Fin 64) :
    val_main_v5 (F := Ideal) x (ix4 b h n d) = x (ix3 b n (col h d)) := split_at x b h n d

/-- The scaled scores of query row `n` of head `(b, h)` against key `j`. -/
theorem scores_at (x0 x1 : (⟨S2x2048x512, .f32⟩ : BufTy).Contents (Elt Ideal)) (b : Fin 2) (h : Fin 8) (n j : Fin 2048) :
    val_main_v8 (F := Ideal) x0 x1 (ix4 b h n j) = Softmax.scores scale (qrow x0 b h n) (keys x1 b h) j := by
  rw [val_main_v8_apply, val_main_v6_apply, val_main_v7_apply, val_main_cst_apply]
  have el : ∀ k : Fin 64, lidx_main_v6 (ix4 b h n j) k = ix4 b h n k := fun k =>
    funext fun a => Fin.ext (by match a with | ⟨0, _⟩ => rfl | ⟨1, _⟩ => rfl | ⟨2, _⟩ => rfl | ⟨3, _⟩ => rfl)
  have er : ∀ k : Fin 64, ridx_main_v6 (ix4 b h n j) k = ix4 b h j k := fun k =>
    funext fun a => Fin.ext (by match a with | ⟨0, _⟩ => rfl | ⟨1, _⟩ => rfl | ⟨2, _⟩ => rfl | ⟨3, _⟩ => rfl)
  simp only [el, er, split_at, split_key_at]
  rfl

/-- The maximum of row `n`'s scores: the fold of `max` from `-∞` over the keys. -/
theorem top_at (x0 x1 : (⟨S2x2048x512, .f32⟩ : BufTy).Contents (Elt Ideal)) (b : Fin 2) (h : Fin 8) (n : Fin 2048) :
    val_main_v11 (F := Ideal) x0 x1 (ix3 b h n)
      = Softmax.top negInf (Softmax.scores scale (qrow x0 b h n) (keys x1 b h)) := by
  have hR : S2x8x2048x2048.Reduces [3] S2x8x2048 := by decide
  have key := Host.reduce_eq_fold_single (FloatOps.maximumf (F := Ideal) (φ := .f32)) (val_main_v8 (F := Ideal) x0 x1)
    (val_main_cst_0 (F := Ideal)) reducesTo_S2x8x2048x2048_S2x8x2048_d3 hR h_S_ (ix3 b h n)
  have hs : (val_main_v8 (F := Ideal) x0 x1 ∘ hR.lift (ix3 b h n))
      = Softmax.scores scale (qrow x0 b h n) (keys x1 b h) := by
    funext k
    show val_main_v8 (F := Ideal) x0 x1 (hR.lift (ix3 b h n) k) = _
    rw [← scores_at x0 x1 b h n k]
    exact congrArg (val_main_v8 (F := Ideal) x0 x1) (funext fun a => Fin.ext (by
      match a with | ⟨0, _⟩ => rfl | ⟨1, _⟩ => rfl | ⟨2, _⟩ => rfl | ⟨3, _⟩ => rfl))
  rw [val_main_v11_apply, val_main_v10_apply, val_main_cst_1_apply]
  refine (congrArg (fun z => FloatOps.maximumf (F := Ideal) (FloatOps.ofBits .f32 0xFF800000#32) z) key).trans ?_
  show max negInf (Finset.univ.fold max negInf (val_main_v8 (F := Ideal) x0 x1 ∘ hR.lift (ix3 b h n))) = _
  rw [hs]
  exact Softmax.max_top negInf _

/-- The weight of key `j` in row `n`: the exponential of its score less the row's maximum. -/
theorem weight_at (x0 x1 : (⟨S2x2048x512, .f32⟩ : BufTy).Contents (Elt Ideal)) (b : Fin 2) (h : Fin 8) (n j : Fin 2048) :
    val_main_v15 (F := Ideal) x0 x1 (ix4 b h n j)
      = Softmax.weight negInf (Softmax.scores scale (qrow x0 b h n) (keys x1 b h)) j := by
  rw [val_main_v15_apply, val_main_v14_apply, val_main_v13_apply, val_main_v12_apply]
  have e : idx_main_v12 (idx_main_v13 (ix4 b h n j)) = ix3 b h n :=
    funext fun a => Fin.ext (by match a with | ⟨0, _⟩ => rfl | ⟨1, _⟩ => rfl | ⟨2, _⟩ => rfl)
  rw [e, top_at, scores_at]
  rfl

/-- The normaliser of row `n`: the sum of its weights (the sum starts from zero). -/
theorem norm_at (x0 x1 : (⟨S2x2048x512, .f32⟩ : BufTy).Contents (Elt Ideal)) (b : Fin 2) (h : Fin 8) (n : Fin 2048) :
    val_main_v16 (F := Ideal) x0 x1 (ix3 b h n)
      = ∑ j, Softmax.weight negInf (Softmax.scores scale (qrow x0 b h n) (keys x1 b h)) j := by
  rw [val_main_v16_apply, val_main_cst_2_apply]
  show Ideal.ofBits .f32 0x00000000#32 + _ = _
  rw [Ideal.ofBits_zero_f32, zero_add]
  refine Finset.sum_congr rfl fun k _ => ?_
  rw [← weight_at x0 x1 b h n k]
  exact congrArg (val_main_v15 (F := Ideal) x0 x1) (funext fun a => Fin.ext (by
    match a with | ⟨0, _⟩ => rfl | ⟨1, _⟩ => rfl | ⟨2, _⟩ => rfl | ⟨3, _⟩ => rfl))

/-- The normalised weight of key `j` in row `n`. -/
theorem normalised_at (x0 x1 : (⟨S2x2048x512, .f32⟩ : BufTy).Contents (Elt Ideal)) (b : Fin 2) (h : Fin 8) (n j : Fin 2048) :
    val_main_v19 (F := Ideal) x0 x1 (ix4 b h n j)
      = Ideal.div (Softmax.weight negInf (Softmax.scores scale (qrow x0 b h n) (keys x1 b h)) j)
          (∑ j', Softmax.weight negInf (Softmax.scores scale (qrow x0 b h n) (keys x1 b h)) j') := by
  rw [val_main_v19_apply, val_main_v18_apply, val_main_v17_apply]
  have e : idx_main_v17 (idx_main_v18 (ix4 b h n j)) = ix3 b h n :=
    funext fun a => Fin.ext (by match a with | ⟨0, _⟩ => rfl | ⟨1, _⟩ => rfl | ⟨2, _⟩ => rfl)
  rw [e, norm_at, weight_at]
  rfl

/-- The second contraction at `(b, h, n, d)`: the attention entry with every weight normalised before the sum. -/
theorem head_at (x0 x1 x2 : (⟨S2x2048x512, .f32⟩ : BufTy).Contents (Elt Ideal)) (b : Fin 2) (h : Fin 8) (n : Fin 2048) (d : Fin 64) :
    val_main_v20 (F := Ideal) x0 x1 x2 (ix4 b h n d) = headBefore x0 x1 x2 b h n d := by
  rw [val_main_v20_apply]
  have el : ∀ k : Fin 2048, lidx_main_v20 (ix4 b h n d) k = ix4 b h n k := fun k =>
    funext fun a => Fin.ext (by match a with | ⟨0, _⟩ => rfl | ⟨1, _⟩ => rfl | ⟨2, _⟩ => rfl | ⟨3, _⟩ => rfl)
  have er : ∀ k : Fin 2048, ridx_main_v20 (ix4 b h n d) k = ix4 b h k d := fun k =>
    funext fun a => Fin.ext (by match a with | ⟨0, _⟩ => rfl | ⟨1, _⟩ => rfl | ⟨2, _⟩ => rfl | ⟨3, _⟩ => rfl)
  simp only [el, er, normalised_at, split_value_at]
  rfl

/-- The merge of the heads: entry `(b, n, 64h + d)` of the result is entry `(b, h, n, d)`. -/
theorem result_at (x0 x1 x2 : (⟨S2x2048x512, .f32⟩ : BufTy).Contents (Elt Ideal)) (b : Fin 2) (n : Fin 2048) (h : Fin 8) (d : Fin 64) :
    val_main_v22 (F := Ideal) x0 x1 x2 (ix3 b n (col h d)) = headBefore x0 x1 x2 b h n d := by
  rw [val_main_v22_apply, val_main_v21_apply, ← head_at]
  refine congrArg (val_main_v20 (F := Ideal) x0 x1 x2) (funext fun a => Fin.ext ?_)
  have hb := b.isLt; have hh := h.isLt; have hn := n.isLt; have hd := d.isLt
  match a with
  | ⟨0, _⟩ => show ((b.val * 2048 + n.val) * 512 + (h.val * 64 + d.val)) / 1048576 = b.val; omega
  | ⟨1, _⟩ => show ((b.val * 2048 + n.val) * 512 + (h.val * 64 + d.val)) / 64 % 8 = h.val; omega
  | ⟨2, _⟩ => show ((b.val * 2048 + n.val) * 512 + (h.val * 64 + d.val)) / 512 % 2048 = n.val; omega
  | ⟨3, _⟩ => show ((b.val * 2048 + n.val) * 512 + (h.val * 64 + d.val)) % 64 = d.val; omega

/-- Over finite arguments the reference's result array is the attention array. -/
theorem result_eq (x0 x1 x2 : (⟨S2x2048x512, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    val_main_v22 (F := Ideal) x0 x1 x2 = Attn.result x0 x1 x2 := by
  funext i
  obtain ⟨b, n, c, rfl⟩ : ∃ (b : Fin 2) (n : Fin 2048) (c : Fin 512), i = ix3 b n c := ⟨i 0, i 1, i 2, eq_ix3 i⟩
  rw [← col_headOf_featOf c, result_at, result_apply, head_eq _ _ _ h0 h1 h2]

end Cert.ReferenceIdeal.RefValue

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibPlainProduct.lean ====
/-
  The plain matrix product at the ideal values, where a product is an exact sum.

  `A · B` for `A : [m, k]`, `B : [k, n]` — the second axis of the left operand contracted with the first of the right —
  into a zero accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.KernelTile.lean ====
/-
  One sub-tile of the kernel's body, read at an index.

  The body handles 256 query rows at a time against the head's whole key and value blocks.  For the query rows `q`
  (`[1, 256, 64]`), keys `K` and values `V` (`[2048, 64]` each) the stored tile has at `(0, i, d)` the attention entry of
  row `i` and feature `d`, normalised after the weighted sum: the first product contracts the feature axis of both
  operands and is scaled by `1/8`; the row maximum is the fold of `max` from `-∞`; the weights are the exponentials of
  the scores less the maximum; the second product is the weighted sum of the values, divided by the sum of the weights.
  All four sub-tiles of the body store this one function of their own query rows.
-/
import proofs.«177805_j21045339750416_2_alg».proof.Proof.Gen.KernelIdeal.Skeleton
import proofs.«177805_j21045339750416_2_alg».proof.Proof.AttnSpec
import proofs.«177805_j21045339750416_2_alg».proof.Proof.LibBroadcast
import proofs.«177805_j21045339750416_2_alg».proof.Proof.LibRowsProduct
import proofs.«177805_j21045339750416_2_alg».proof.Proof.LibPlainProduct
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open Cert.Attn

/-- The scaled scores of the 256 query rows against the 2048 keys. -/
def tScores (K : FVec Ideal S2048x64 .bf16) (q : Vec Ideal S1x256x64 .bf16) : FVec Ideal S256x2048 .f32 :=
  mulf (matmul dot_S256x64_S2048x64_S256x2048_1_1_0_0_n_n none
      (shapeCast S256x64 q shapeCasts_S1x256x64_S256x64 : FVec Ideal S256x64 .bf16) K (constant S256x2048 .f32 0x00000000#32))
    (broadcast S256x2048 (Scalar.ofBits .f32 0x3E000000#32))

/-- The weights: the exponentials of the scores less each row's maximum. -/
def tWeights (S : FVec Ideal S256x2048 .f32) : FVec Ideal S256x2048 .f32 :=
  exp (subf S (broadcastTo S256x2048 (shapeCast S256x1
    (multiReduction .maximumf [1] S256 S 0xFF800000#32 reduces_S256x2048_S256 (.inl rfl) rfl) shapeCasts_S256_S256x1)
    broadcasts_S256x1_S256x2048))

/-- The weighted sums of the values, divided by each row's sum of weights. -/
def tOut (E : FVec Ideal S256x2048 .f32) (V : FVec Ideal S2048x64 .bf16) : FVec Ideal S256x64 .f32 :=
  divf (matmul dot_S256x2048_S2048x64_S256x64_1_0_0_1_n_n none (truncf .bf16 E bitsLt_bf16_f32) V
      (constant S256x64 .f32 0x00000000#32))
    (broadcastTo S256x64 (shapeCast S256x1
      (multiReduction .add [1] S256 E 0x00000000#32 reduces_S256x2048_S256 (.inl rfl) rfl) shapeCasts_S256_S256x1)
      broadcasts_S256x1_S256x64)

set_option maxRecDepth 65536 in
/-- The stored tile is these three stages, re-laid with a leading unit axis. -/
theorem pay_eq (K V : FVec Ideal S2048x64 .bf16) (q : Vec Ideal S1x256x64 .bf16) :
    k0_pay1 (F := Ideal) K V q = shapeCast S1x256x64 (tOut (tWeights (tScores K q)) V) shapeCasts_S256x64_S1x256x64 := rfl

/-- The scores at `(i, j)`. -/
theorem tScores_apply (K : FVec Ideal S2048x64 .bf16) (q : Vec Ideal S1x256x64 .bf16) (i : Fin 256) (j : Fin 2048) :
    tScores K q (ix2 i j)
      = Softmax.scores scale (fun dd : Fin 64 => q (ix3 (0 : Fin 1) i dd)) (fun (j : Fin 2048) (dd : Fin 64) => K (ix2 j dd)) j := by
  unfold tScores
  show FloatOps.matmul dot_S256x64_S2048x64_S256x2048_1_1_0_0_n_n none
      (shapeCast S256x64 q shapeCasts_S1x256x64_S256x64 : FVec Ideal S256x64 .bf16) K
      (constant S256x2048 .f32 0x00000000#32) (ix2 i j) * Ideal.ofBits .f32 0x3E000000#32 = _
  refine (congrArg (· * Ideal.ofBits .f32 0x3E000000#32)
    (RowsProduct.matmul_nt_apply (m := 256) (n := 2048) (k := 64) dot_S256x64_S2048x64_S256x2048_1_1_0_0_n_n_wf none
      (shapeCast S256x64 q shapeCasts_S1x256x64_S256x64 : FVec Ideal S256x64 .bf16) K i j)).trans ?_
  unfold Softmax.scores scale
  refine congrArg (· * Ideal.ofBits .f32 0x3E000000#32) (Finset.sum_congr rfl fun c _ => ?_)
  exact congrArg (· * K (ix2 j c)) (shapeCast_1ab_ab_apply q shapeCasts_S1x256x64_S256x64 i c)

/-- A row's maximum: the fold of `max` from `-∞` over the row. -/
theorem rowMax_apply (S : FVec Ideal S256x2048 .f32) (hφ : FKind.Formats .f32)
    (hacc : (0xFF800000#32 : BitVec 32) = FKind.maximumf.neutral .f32 hφ) (i : Fin 256) :
    multiReduction .maximumf [1] S256 S 0xFF800000#32 reduces_S256x2048_S256 hφ hacc (ix1 i)
      = Softmax.top negInf (fun j : Fin 2048 => S (ix2 i j)) := by
  refine (Ideal.multiReduction_maximumf_single S 0xFF800000#32 reduces_S256x2048_S256 hφ hacc (ix1 i)).trans ?_
  show Finset.univ.fold max negInf (S ∘ reduces_S256x2048_S256.lift (ix1 i)) = Finset.univ.fold max negInf (fun j : Fin 2048 => S (ix2 i j))
  refine congrArg (Finset.univ.fold max negInf) (funext fun k => congrArg S (funext fun a => Fin.ext ?_))
  match a with
  | ⟨0, _⟩ => rfl
  | ⟨1, _⟩ => rfl

/-- A row's sum. -/
theorem rowSum_apply (E : FVec Ideal S256x2048 .f32) (hφ : FKind.Formats .f32)
    (hacc : (0x00000000#32 : BitVec 32) = FKind.add.neutral .f32 hφ) (i : Fin 256) :
    multiReduction .add [1] S256 E 0x00000000#32 reduces_S256x2048_S256 hφ hacc (ix1 i) = ∑ j : Fin 2048, E (ix2 i j) := by
  refine (Ideal.multiReduction_add_single E 0x00000000#32 reduces_S256x2048_S256 hφ hacc (ix1 i)).trans ?_
  show ∑ k : Fin 2048, E (reduces_S256x2048_S256.lift (ix1 i) k) = _
  refine Finset.sum_congr rfl fun k _ => congrArg E (funext fun a => Fin.ext ?_)
  match a with
  | ⟨0, _⟩ => rfl
  | ⟨1, _⟩ => rfl

/-- The weights at `(i, j)`. -/
theorem tWeights_apply (S : FVec Ideal S256x2048 .f32) (i : Fin 256) (j : Fin 2048) :
    tWeights S (ix2 i j) = Softmax.weight negInf (fun j : Fin 2048 => S (ix2 i j)) j := by
  unfold tWeights Softmax.weight
  show Ideal.exp (S (ix2 i j) - broadcastTo S256x2048 (shapeCast S256x1
    (multiReduction .maximumf [1] S256 S 0xFF800000#32 reduces_S256x2048_S256 (.inl rfl) rfl) shapeCasts_S256_S256x1)
    broadcasts_S256x1_S256x2048 (ix2 i j)) = _
  refine congrArg (fun z => Ideal.exp (S (ix2 i j) - z)) ?_
  refine (Layout.broadcastTo_a1_ab_apply _ broadcasts_S256x1_S256x2048 i j).trans ?_
  refine (Layout.shapeCast_col_apply _ shapeCasts_S256_S256x1 i).trans ?_
  exact rowMax_apply S _ _ i

/-- The output at `(i, d)`. -/
theorem tOut_apply (E : FVec Ideal S256x2048 .f32) (V : FVec Ideal S2048x64 .bf16) (i : Fin 256) (d : Fin 64) :
    tOut E V (ix2 i d) = Ideal.div (∑ j : Fin 2048, E (ix2 i j) * V (ix2 j d)) (∑ j : Fin 2048, E (ix2 i j)) := by
  unfold tOut
  show Ideal.div (FloatOps.matmul dot_S256x2048_S2048x64_S256x64_1_0_0_1_n_n none (truncf .bf16 E bitsLt_bf16_f32) V
      (constant S256x64 .f32 0x00000000#32) (ix2 i d))
    (broadcastTo S256x64 (shapeCast S256x1
      (multiReduction .add [1] S256 E 0x00000000#32 reduces_S256x2048_S256 (.inl rfl) rfl) shapeCasts_S256_S256x1)
      broadcasts_S256x1_S256x64 (ix2 i d)) = _
  have hA : FloatOps.matmul dot_S256x2048_S2048x64_S256x64_1_0_0_1_n_n none (truncf .bf16 E bitsLt_bf16_f32) V
      (constant S256x64 .f32 0x00000000#32) (ix2 i d) = ∑ j : Fin 2048, E (ix2 i j) * V (ix2 j d) :=
    PlainProduct.matmul_nn_apply (m := 256) (n := 64) (k := 2048) dot_S256x2048_S2048x64_S256x64_1_0_0_1_n_n_wf none
      (truncf .bf16 E bitsLt_bf16_f32) V i d
  have hB : broadcastTo S256x64 (shapeCast S256x1
      (multiReduction .add [1] S256 E 0x00000000#32 reduces_S256x2048_S256 (.inl rfl) rfl) shapeCasts_S256_S256x1)
      broadcasts_S256x1_S256x64 (ix2 i d) = ∑ j : Fin 2048, E (ix2 i j) :=
    ((Layout.broadcastTo_a1_ab_apply _ broadcasts_S256x1_S256x64 i d).trans
      (Layout.shapeCast_col_apply _ shapeCasts_S256_S256x1 i)).trans (rowSum_apply E _ _ i)
  rw [hA, hB]

/-- THE TILE at `(0, i, d)`: the attention entry of query row `i` and feature `d`, normalised after the sum. -/
theorem pay_apply (K V : FVec Ideal S2048x64 .bf16) (q : Vec Ideal S1x256x64 .bf16) (i : Fin 256) (d : Fin 64) :
    k0_pay1 (F := Ideal) K V q (ix3 (0 : Fin 1) i d)
      = Softmax.attnAfter negInf
          (Softmax.scores scale (fun dd : Fin 64 => q (ix3 (0 : Fin 1) i dd)) (fun (j : Fin 2048) (dd : Fin 64) => K (ix2 j dd)))
          (fun j : Fin 2048 => V (ix2 j d)) := by
  rw [pay_eq]
  refine (shapeCast_ab_1ab_apply _ shapeCasts_S256x64_S1x256x64 (0 : Fin 1) i d).trans ?_
  rw [tOut_apply]
  have hS : (fun j : Fin 2048 => tScores K q (ix2 i j))
      = Softmax.scores scale (fun dd : Fin 64 => q (ix3 (0 : Fin 1) i dd)) (fun (j : Fin 2048) (dd : Fin 64) => K (ix2 j dd)) :=
    funext fun j => tScores_apply K q i j
  unfold Softmax.attnAfter
  rw [← hS]
  simp only [tWeights_apply]

end Cert.KernelIdeal.Tile

end
-- ==== Proof.KernelBlock.lean ====
/-
  What one run of the kernel's body leaves in the output's staging buffer, as one function of the three input blocks.

  At a grid point the body sees the query block `x0` (`[1, 1024, 64]`: 1024 positions of one head) and the head's whole key
  and value blocks `x1`, `x2` (`[1, 2048, 64]`).  It stores four tiles of 256 rows, at row offsets 0, 256, 512 and 768;
  the tile at offset `o` holds, at `(0, i, d)`, the attention entry of query row `o + i` and feature `d`.  So the four
  tiles are the restrictions of ONE function of the block index — row `r`, feature `d` ↦ the attention entry of row `r` —
  and together they cover the block.
-/
import proofs.«177805_j21045339750416_2_alg».proof.Proof.Gen.KernelIdeal.Frame
import proofs.«177805_j21045339750416_2_alg».proof.Proof.KernelTile
import Idealize.ShloMosaic.Lib.Pipeline.Value
import Idealize.ShloMosaic.Lib.Tactic

set_option maxRecDepth 65536

noncomputable section

namespace Cert.KernelIdeal.Block

open Cert.KernelIdeal Cert.KernelIdeal.Gen Idealize.ShloMosaic Idealize.ShloMosaic.TcCoe Idealize.ShloMosaic.ValueIdx
open Idealize.SL.Sem Cert.Attn

/-- The attention entry of row `r` and feature `d` of the block, from the three input blocks. -/
def rowOut (x0 : Vec Ideal S1x1024x64 .bf16) (x1 x2 : Vec Ideal S1x2048x64 .bf16) (r : Fin 1024) (d : Fin 64) : EReal :=
  Softmax.attnAfter negInf
    (Softmax.scores scale (fun dd : Fin 64 => x0 (ix3 (0 : Fin 1) r dd)) (fun (j : Fin 2048) (dd : Fin 64) => x1 (ix3 (0 : Fin 1) j dd)))
    (fun j : Fin 2048 => x2 (ix3 (0 : Fin 1) j d))

/-- The whole output block. -/
def blockOut (x0 : Vec Ideal S1x1024x64 .bf16) (x1 x2 : Vec Ideal S1x2048x64 .bf16) : Vec Ideal S1x1024x64 .f32 :=
  fun y => rowOut x0 x1 x2 (y 1) (y 2)

theorem hz3 : (![0, 0, 0] : Fin 3 → Nat) = fun _ => 0 := funext fun a => by fin_cases a <;> rfl

/-- The key (or value) block, loaded whole and with its leading unit axis dropped, at `(j, dd)`. -/
theorem whole_at (arg : Memref sig .tc .vmem S1x2048x64 .bf16) (harg : arg.IsWhole) (x : Vec Ideal S1x2048x64 .bf16)
    (inb : ∀ a, (![0, 0, 0] : Fin 3 → Nat) a + S1x2048x64.size a ≤ S1x2048x64.size a) (j : Fin 2048) (dd : Fin 64) :
    k0_pay2 (F := Ideal) (View.readAt (Elt Ideal) arg.view (Rect.unit (s := S1x2048x64) ![0, 0, 0] S1x2048x64.size inb).toLoadRect (harg.unread x))
      (ix2 j dd) = x (ix3 (0 : Fin 1) j dd) := by
  unfold k0_pay2
  rw [View.readAt_eq_ld, harg.read_unread, View.ld_unit_zero (S := S1x2048x64) hz3]
  exact shapeCast_1ab_ab_apply x shapeCasts_S1x2048x64_S2048x64 j dd

/-- The tile stored at row offset `o`, at `(u, i, d)`: the attention entry of row `o + i`. -/
theorem tile_eq (arg2 : Memref sig .tc .vmem S1x1024x64 .bf16) (harg2 : arg2.IsWhole)
    (arg3 : Memref sig .tc .vmem S1x2048x64 .bf16) (harg3 : arg3.IsWhole)
    (arg4 : Memref sig .tc .vmem S1x2048x64 .bf16) (harg4 : arg4.IsWhole)
    (x0 : Vec Ideal S1x1024x64 .bf16) (x1 x2 : Vec Ideal S1x2048x64 .bf16)
    (o : Nat) (inb : ∀ a, (![0, o, 0] : Fin 3 → Nat) a + S1x256x64.size a ≤ S1x1024x64.size a)
    (inb3 : ∀ a, (![0, 0, 0] : Fin 3 → Nat) a + S1x2048x64.size a ≤ S1x2048x64.size a)
    (u : Fin 1) (i : Fin 256) (d : Fin 64) :
    k0_pay1 (F := Ideal)
        (k0_pay2 (View.readAt (Elt Ideal) arg3.view (Rect.unit (s := S1x2048x64) ![0, 0, 0] S1x2048x64.size inb3).toLoadRect (harg3.unread x1)))
        (k0_pay3 (View.readAt (Elt Ideal) arg4.view (Rect.unit (s := S1x2048x64) ![0, 0, 0] S1x2048x64.size inb3).toLoadRect (harg4.unread x2)))
        (View.readAt (Elt Ideal) arg2.view (Rect.unit (s := S1x1024x64) ![0, o, 0] S1x256x64.size inb).toLoadRect (harg2.unread x0))
        (ix3 u i d)
      = blockOut x0 x1 x2 ((Rect.unit (s := S1x1024x64) ![0, o, 0] S1x256x64.size inb).emb (ix3 u i d)) := by
  obtain rfl : u = 0 := Subsingleton.elim _ _
  have ho : o + i.val < 1024 := by
    have h1 := inb 1
    have hi := i.isLt
    have e1 : (![0, o, 0] : Fin 3 → Nat) 1 + S1x256x64.size 1 = o + 256 := rfl
    have e2 : S1x1024x64.size 1 = 1024 := rfl
    omega
  rw [Tile.pay_apply]
  show _ = rowOut x0 x1 x2 _ _
  unfold rowOut
  have hQ : (fun dd : Fin 64 => View.readAt (Elt Ideal) arg2.view (Rect.unit (s := S1x1024x64) ![0, o, 0] S1x256x64.size inb).toLoadRect
      (harg2.unread x0) (ix3 (0 : Fin 1) i dd)) = fun dd : Fin 64 => x0 (ix3 (0 : Fin 1) (⟨o + i.val, ho⟩ : Fin 1024) dd) := by
    funext dd
    rw [View.readAt_eq_ld, harg2.read_unread]
    show x0 ((Rect.unit (s := S1x1024x64) ![0, o, 0] S1x256x64.size inb).idx (ix3 (0 : Fin 1) i dd)) = _
    refine congrArg x0 (funext fun a => Fin.ext ?_)
    match a with
    | ⟨0, _⟩ => show 0 + 1 * 0 = 0; rfl
    | ⟨1, _⟩ => show o + 1 * i.val = o + i.val; omega
    | ⟨2, _⟩ => show 0 + 1 * dd.val = dd.val; omega
  have hK : (fun (j : Fin 2048) (dd : Fin 64) => k0_pay2 (F := Ideal) (View.readAt (Elt Ideal) arg3.view
      (Rect.unit (s := S1x2048x64) ![0, 0, 0] S1x2048x64.size inb3).toLoadRect (harg3.unread x1)) (ix2 j dd))
      = fun (j : Fin 2048) (dd : Fin 64) => x1 (ix3 (0 : Fin 1) j dd) :=
    funext fun j => funext fun dd => whole_at arg3 harg3 x1 inb3 j dd
  have hV : (fun j : Fin 2048 => k0_pay3 (F := Ideal) (View.readAt (Elt Ideal) arg4.view
      (Rect.unit (s := S1x2048x64) ![0, 0, 0] S1x2048x64.size inb3).toLoadRect (harg4.unread x2)) (ix2 j d))
      = fun j : Fin 2048 => x2 (ix3 (0 : Fin 1) j d) :=
    funext fun j => whole_at arg4 harg4 x2 inb3 j d
  rw [hQ, hK, hV]
  have e1 : ((Rect.unit (s := S1x1024x64) ![0, o, 0] S1x256x64.size inb).emb (ix3 (0 : Fin 1) i d) 1 : Fin 1024) = ⟨o + i.val, ho⟩ :=
    Fin.ext (by show o + 1 * i.val = o + i.val; omega)
  have e2 : ((Rect.unit (s := S1x1024x64) ![0, o, 0] S1x256x64.size inb).emb (ix3 (0 : Fin 1) i d) 2 : Fin 64) = d :=
    Fin.ext (by show 0 + 1 * d.val = d.val; omega)
  rw [e1, e2]
  rfl

/-- THE BLOCK: what the body leaves in the output's staging buffer is the block function of the three input blocks —
    each of the four stored tiles is its restriction to the tile's rows, and the tiles cover the block. -/
theorem out_eq (c : Dev nD) (i : grid0.Coords) (arg2 : Memref sig .tc .vmem S1x1024x64 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S1x1024x64 .f32) (harg5 : arg5.IsWhole)
    (x0 : Vec Ideal S1x1024x64 .bf16) (x1 x2 : Vec Ideal S1x2048x64 .bf16) :
    out0_A_3 (F := Ideal) c i arg2 harg2 arg3 harg3 arg4 harg4 arg5 harg5 x0 x1 x2 = blockOut x0 x1 x2 := by
  unfold out0_A_3
  rw [View.read_writes_eq_canon _ _ _ (cover0_A_3 c i arg2 harg2 arg3 harg3 arg4 harg4 arg5 harg5 x0 x1 x2)]
  funext y
  refine View.canon_apply_of_pieces (blockOut x0 x1 x2) _ ?_ y
    (cover0_A_3 c i arg2 harg2 arg3 harg3 arg4 harg4 arg5 harg5 x0 x1 x2 y)
  unfold kernelRun0_A
  dsimp only
  sl_unfold_words
  intro p hp
  simp only [List.mem_cons, List.mem_nil_iff, or_false] at hp
  rcases hp with rfl | rfl | rfl | rfl
  all_goals
    intro x
    obtain ⟨u, r, d, rfl⟩ : ∃ (u : Fin 1) (r : Fin 256) (d : Fin 64), x = ix3 u r d := ⟨x 0, x 1, x 2, eq_ix3 x⟩
  · exact tile_eq arg2 harg2 arg3 harg3 arg4 harg4 x0 x1 x2 768 _ _ u r d
  · exact tile_eq arg2 harg2 arg3 harg3 arg4 harg4 x0 x1 x2 512 _ _ u r d
  · exact tile_eq arg2 harg2 arg3 harg3 arg4 harg4 x0 x1 x2 256 _ _ u r d
  · exact tile_eq arg2 harg2 arg3 harg3 arg4 harg4 x0 x1 x2 0 _ _ u r d

end Cert.KernelIdeal.Block

end
-- ==== Proof.HeadLayout.lean ====
/-
  Splitting the feature axis into heads, and merging the heads back, read at an index.

  A `[2, 2048, 512]` array re-laid as `[2, 2048, 8, 64]`, with the position and head axes exchanged, and re-laid as
  `[16, 2048, 64]` has at `(8b + h, n, d)` the entry `(b, n, 64h + d)` of the original.  The other way round, a
  `[16, 2048, 64]` array re-laid as `[2, 8, 2048, 64]`, with the head and position axes exchanged, and re-laid as
  `[2, 2048, 512]` has at `(b, n, 64h + d)` the entry `(8b + h, n, d)`.  Each step keeps the row-major position or
  permutes two coordinates.
-/
import Idealize.ShloMosaic.Lib.Pipeline.Value
import Idealize.ShloMosaic.Lib.ValueIdx
import proofs.«177805_j21045339750416_2_alg».proof.Proof.AttnSpec

noncomputable section

namespace Cert.HeadLayout

open Idealize.ShloMosaic Idealize.ShloMosaic.ValueIdx Cert.Attn

variable {α : Type}

/-- Batch `b` and head `h` as one of the sixteen (batch, head) pairs. -/
def pair (b : Fin 2) (h : Fin 8) : Fin 16 := ⟨b.val * 8 + h.val, by have := b.isLt; have := h.isLt; omega⟩
/-- The batch and the head of a pair. -/
def batchOf (p : Fin 16) : Fin 2 := ⟨p.val / 8, by have := p.isLt; omega⟩
def headOfPair (p : Fin 16) : Fin 8 := ⟨p.val % 8, Nat.mod_lt _ (by decide)⟩

theorem pair_batchOf_headOfPair (p : Fin 16) : pair (batchOf p) (headOfPair p) = p :=
  Fin.ext (by show p.val / 8 * 8 + p.val % 8 = p.val; omega)

/-- The split into heads at `(8b + h, n, d)`. -/
theorem split_apply (x : (⟨3, ![2, 2048, 512]⟩ : Shape).Idx → α)
    (h1 : (⟨3, ![2, 2048, 512]⟩ : Shape).ShapeCasts ⟨4, ![2, 2048, 8, 64]⟩)
    (h2 : (⟨4, ![2, 2048, 8, 64]⟩ : Shape).Transposes [0, 2, 1, 3] ⟨4, ![2, 8, 2048, 64]⟩)
    (h3 : (⟨4, ![2, 8, 2048, 64]⟩ : Shape).ShapeCasts ⟨3, ![16, 2048, 64]⟩)
    (b : Fin 2) (h : Fin 8) (n : Fin 2048) (d : Fin 64) :
    shapeCast (⟨3, ![16, 2048, 64]⟩ : Shape)
        (transpose (⟨4, ![2, 8, 2048, 64]⟩ : Shape) [0, 2, 1, 3] (shapeCast (⟨4, ![2, 2048, 8, 64]⟩ : Shape) x h1) h2) h3
        (ix3 (pair b h) n d)
      = x (ix3 b n (col h d)) := by
  have hb := b.isLt; have hh := h.isLt; have hn := n.isLt; have hd := d.isLt
  refine (shapeCast_apply _ h3 (ix3 (pair b h) n d) (ix4 b h n d) ?_).trans ?_
  · rw [Shape.rowMajor_val_four, Shape.rowMajor_val_three]
    show ((b.val * 8 + h.val) * 2048 + n.val) * 64 + d.val = ((b.val * 8 + h.val) * 2048 + n.val) * 64 + d.val
    rfl
  refine (transpose_apply [0, 2, 1, 3] _ h2 (ix4 b h n d) (ix4 b n h d) (fun a => by
    match a with
    | ⟨0, _⟩ => rfl
    | ⟨1, _⟩ => rfl
    | ⟨2, _⟩ => rfl
    | ⟨3, _⟩ => rfl)).trans ?_
  refine shapeCast_apply x h1 (ix4 b n h d) (ix3 b n (col h d)) ?_
  rw [Shape.rowMajor_val_three, Shape.rowMajor_val_four]
  show (b.val * 2048 + n.val) * 512 + (h.val * 64 + d.val) = ((b.val * 2048 + n.val) * 8 + h.val) * 64 + d.val
  omega

/-- The merge of the heads at `(b, n, 64h + d)`. -/
theorem merge_apply (y : (⟨3, ![16, 2048, 64]⟩ : Shape).Idx → α)
    (h1 : (⟨3, ![16, 2048, 64]⟩ : Shape).ShapeCasts ⟨4, ![2, 8, 2048, 64]⟩)
    (h2 : (⟨4, ![2, 8, 2048, 64]⟩ : Shape).Transposes [0, 2, 1, 3] ⟨4, ![2, 2048, 8, 64]⟩)
    (h3 : (⟨4, ![2, 2048, 8, 64]⟩ : Shape).ShapeCasts ⟨3, ![2, 2048, 512]⟩)
    (b : Fin 2) (n : Fin 2048) (h : Fin 8) (d : Fin 64) :
    shapeCast (⟨3, ![2, 2048, 512]⟩ : Shape)
        (transpose (⟨4, ![2, 2048, 8, 64]⟩ : Shape) [0, 2, 1, 3] (shapeCast (⟨4, ![2, 8, 2048, 64]⟩ : Shape) y h1) h2) h3
        (ix3 b n (col h d))
      = y (ix3 (pair b h) n d) := by
  have hb := b.isLt; have hh := h.isLt; have hn := n.isLt; have hd := d.isLt
  refine (shapeCast_apply _ h3 (ix3 b n (col h d)) (ix4 b n h d) ?_).trans ?_
  · rw [Shape.rowMajor_val_four, Shape.rowMajor_val_three]
    show ((b.val * 2048 + n.val) * 8 + h.val) * 64 + d.val = (b.val * 2048 + n.val) * 512 + (h.val * 64 + d.val)
    omega
  refine (transpose_apply [0, 2, 1, 3] _ h2 (ix4 b n h d) (ix4 b h n d) (fun a => by
    match a with
    | ⟨0, _⟩ => rfl
    | ⟨1, _⟩ => rfl
    | ⟨2, _⟩ => rfl
    | ⟨3, _⟩ => rfl)).trans ?_
  refine shapeCast_apply y h1 (ix4 b h n d) (ix3 (pair b h) n d) ?_
  rw [Shape.rowMajor_val_three, Shape.rowMajor_val_four]
  show ((b.val * 8 + h.val) * 2048 + n.val) * 64 + d.val = ((b.val * 8 + h.val) * 2048 + n.val) * 64 + d.val
  rfl

end Cert.HeadLayout

end
-- ==== Proof.KernelValue.lean ====
/-
  The kernel's head-major result array after the region.

  The region runs over 16 (batch, head) pairs × 2 halves of the 2048 query positions.  At a point the query window holds
  1024 positions of one pair and the key and value windows the pair's whole arrays, so the block the point writes back is
  the restriction of ONE function of the three head-major arrays: entry `(p, n, d)` is the attention entry of query
  position `n` of pair `p` and feature `d`.  The 32 blocks tile the `[16, 2048, 64]` array, which therefore ends holding
  that function everywhere.
-/
import proofs.«177805_j21045339750416_2_alg».proof.Proof.KernelBlock
import proofs.«177805_j21045339750416_2_alg».proof.Proof.HeadLayout
import Idealize.ShloMosaic.Lib.Pipeline.Value

set_option maxRecDepth 65536

noncomputable section

namespace Cert.KernelIdeal.KValue

open Cert.KernelIdeal Cert.KernelIdeal.Gen Idealize.ShloMosaic Idealize.ShloMosaic.TcCoe Idealize.ShloMosaic.ValueIdx
open Idealize.SL.Sem Cert.Attn
open Idealize.ShloMosaic.Pipeline (Dat)

variable (m : (ℓ : Loc nD τ sig) → Buf (Elt Ideal) ℓ) (ρ : Dev nD → PrngReg)

/-- The head-major result: entry `(p, n, d)` from the head-major query, key and value arrays. -/
def headArr (Qh Kh Vh : S16x2048x64.Idx → EReal) : S16x2048x64.Idx → EReal := fun i =>
  Softmax.attnAfter negInf
    (Softmax.scores scale (fun dd : Fin 64 => Qh (ix3 (i 0) (i 1) dd)) (fun (j : Fin 2048) (dd : Fin 64) => Kh (ix3 (i 0) j dd)))
    (fun j : Fin 2048 => Vh (ix3 (i 0) j (i 2)))

/-- The printed index maps, decided over the 32 grid points: the query window moves with the output window, the key and
    value windows follow its pair only, and the output's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 1 ∧ win0_3.index t (2 : Fin 3) = 0 :=
  (by decide +kernel : ∀ t : Fin grid0.N, _)

/-- Every (pair, half) is some point's output block. -/
theorem idx_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-- WHAT POINT `t` WRITES BACK is block `t` of the head-major result of the arrays as the region finds them. -/
theorem flushed_eq (c : Dev nD) (t : Fin cfg0.N) :
    (dats m 0 c).flushed 3 t
      = ((cfg0.win 3).blk t).view.read (Elt Ideal) (headArr (V m c main_v3) (V m c main_v7) (V m c main_v11)) := by
  show (cfg0.win 3).cut (grid0.coords t) ((dats m 0 c).after 3 t) = _
  rw [after0_3]
  unfold outsAt0
  refine (congrArg ((cfg0.win 3).cut (grid0.coords t)) (Block.out_eq c (grid0.coords t) (ms0_0 t) (hs0_0 t) (ms0_1 t) (hs0_1 t)
    (ms0_2 t) (hs0_2 t) (ms0_3 t) (hs0_3 t) (iblk m c 0 t) (iblk m c 1 t) (iblk m c 2 t))).trans ?_
  obtain ⟨a0, a1, a2, b0, b1, b2, c0, c1, c2, d0, d1, d2⟩ := idx_facts t
  funext y
  have hy0 : (y 0).val < 1 := (y 0).isLt
  have hy1 : (y 1).val < 1024 := (y 1).isLt
  have hy2 : (y 2).val < 64 := (y 2).isLt
  show Block.rowOut (iblk m c 0 t) (iblk m c 1 t) (iblk m c 2 t) (y 1) (y 2)
    = headArr (V m c main_v3) (V m c main_v7) (V m c main_v11) (((cfg0.win 3).blk t).view.emb y)
  unfold Block.rowOut headArr
  have hQ : (fun dd : Fin 64 => iblk m c 0 t (ix3 (0 : Fin 1) (y 1) dd))
      = fun dd : Fin 64 => V m c main_v3 (ix3 ((((cfg0.win 3).blk t).view.emb y) 0) ((((cfg0.win 3).blk t).view.emb y) 1) dd) := by
    funext dd
    show V m c main_v3 (((cfg0.win 0).blk t).view.emb (ix3 (0 : Fin 1) (y 1) dd)) = _
    refine congrArg (V m c main_v3) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 64 + 1 * dd.val = dd.val; omega
  have hK : (fun (j : Fin 2048) (dd : Fin 64) => iblk m c 1 t (ix3 (0 : Fin 1) j dd))
      = fun (j : Fin 2048) (dd : Fin 64) => V m c main_v7 (ix3 ((((cfg0.win 3).blk t).view.emb y) 0) j dd) := by
    funext j dd
    show V m c main_v7 (((cfg0.win 1).blk t).view.emb (ix3 (0 : Fin 1) j dd)) = _
    refine congrArg (V m c main_v7) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * dd.val = dd.val; omega
  have hV : (fun j : Fin 2048 => iblk m c 2 t (ix3 (0 : Fin 1) j (y 2)))
      = fun j : Fin 2048 => V m c main_v11 (ix3 ((((cfg0.win 3).blk t).view.emb y) 0) j ((((cfg0.win 3).blk t).view.emb y) 2)) := by
    funext j
    show V m c main_v11 (((cfg0.win 2).blk t).view.emb (ix3 (0 : Fin 1) j (y 2))) = _
    refine congrArg (V m c main_v11) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 64 + 1 * (y 2).val = win0_3.index t (2 : Fin 3) * 64 + 1 * (y 2).val; omega
  rw [hQ, hK, hV]

/-- An index of the array is in point `t`'s block iff each coordinate is in the block's range on its axis. -/
theorem mem_blk (t : Fin cfg0.N) (i : S16x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v12).slice (win0_3.rect t)).set ↔ _
  rw [View.set_slice_whole, Rect.mem_set_unit]
  exact Iff.rfl

/-- Every index of the array is in some point's block: the point of its pair and of its half of the positions. -/
theorem cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE ARRAY after the region: the head-major result of the arrays as the region finds them. -/
theorem final (c : Dev nD) :
    (dats m 0 c).arrAt 3 cfg0.N = headArr (V m c main_v3) (V m c main_v7) (V m c main_v11) :=
  (dats m 0 c).arrAt_eq_of_cover 3 _ (fun t _ => flushed_eq m c t) cover

end Cert.KernelIdeal.KValue

end
-- ==== Proof.KernelRun.lean ====
/-
  The kernel's run: its result array is the attention array of the three arguments.

  Before the region each argument is split into heads (a change of float format is the identity on the extended reals),
  so the head-major arrays the region finds read the arguments at `(b, n, 64h + d)`.  The region leaves the head-major
  attention array.  After the region the heads are merged back, which puts entry `(8b + h, n, d)` at `(b, n, 64h + d)`.
-/
import proofs.«177805_j21045339750416_2_alg».proof.Proof.KernelValue
import Idealize.ShloMosaic.Lib.StableHlo.Run

set_option maxRecDepth 65536

noncomputable section

namespace Cert.KernelIdeal.KRun

open Cert.KernelIdeal Cert.KernelIdeal.Gen Idealize.ShloMosaic Idealize.ShloMosaic.TcCoe Idealize.ShloMosaic.ValueIdx
open Idealize.SL.Sem Cert.Attn Cert.HeadLayout Cert.KernelIdeal.KValue
open Idealize.ShloMosaic.Pipeline (Dat)

variable (m : (ℓ : Loc nD τ sig) → Buf (Elt Ideal) ℓ) (ρ : Dev nD → PrngReg)

/-- The head-major query array the region finds is the head split of the query argument. -/
theorem V_query (c : Dev nD) : (V m c main_v3 : S16x2048x64.Idx → EReal)
    = shapeCast S16x2048x64 (transpose S2x8x2048x64 [0, 2, 1, 3] (shapeCast S2x2048x8x64
        (truncf (F := Ideal) .bf16 (m ((c : Thread nD τ).loc main_arg0) : FVec Ideal S2x2048x512 .f32) bitsLt_bf16_f32)
        shapeCasts_S2x2048x512_S2x2048x8x64) transposes_S2x2048x8x64_S2x8x2048x64_0_2_1_3) shapeCasts_S2x8x2048x64_S16x2048x64 := by
  show StableHlo.after hostOps0 (fun b => m (c, b)) (Proc.devRef .tc main_v3) = _
  after_results; rfl

/-- Likewise the keys, -/
theorem V_key (c : Dev nD) : (V m c main_v7 : S16x2048x64.Idx → EReal)
    = shapeCast S16x2048x64 (transpose S2x8x2048x64 [0, 2, 1, 3] (shapeCast S2x2048x8x64
        (truncf (F := Ideal) .bf16 (m ((c : Thread nD τ).loc main_arg1) : FVec Ideal S2x2048x512 .f32) bitsLt_bf16_f32)
        shapeCasts_S2x2048x512_S2x2048x8x64) transposes_S2x2048x8x64_S2x8x2048x64_0_2_1_3) shapeCasts_S2x8x2048x64_S16x2048x64 := by
  show StableHlo.after hostOps0 (fun b => m (c, b)) (Proc.devRef .tc main_v7) = _
  after_results; rfl

/-- and the values. -/
theorem V_value (c : Dev nD) : (V m c main_v11 : S16x2048x64.Idx → EReal)
    = shapeCast S16x2048x64 (transpose S2x8x2048x64 [0, 2, 1, 3] (shapeCast S2x2048x8x64
        (truncf (F := Ideal) .bf16 (m ((c : Thread nD τ).loc main_arg2) : FVec Ideal S2x2048x512 .f32) bitsLt_bf16_f32)
        shapeCasts_S2x2048x512_S2x2048x8x64) transposes_S2x2048x8x64_S2x8x2048x64_0_2_1_3) shapeCasts_S2x8x2048x64_S16x2048x64 := by
  show StableHlo.after hostOps0 (fun b => m (c, b)) (Proc.devRef .tc main_v11) = _
  after_results; rfl

theorem V_query_at (c : Dev nD) (b : Fin 2) (h : Fin 8) (n : Fin 2048) (d : Fin 64) :
    V m c main_v3 (ix3 (pair b h) n d) = m ((c : Thread nD τ).loc main_arg0) (ix3 b n (col h d)) :=
  (congrFun (V_query m c) (ix3 (pair b h) n d)).trans (split_apply _ _ _ _ b h n d)

theorem V_key_at (c : Dev nD) (b : Fin 2) (h : Fin 8) (n : Fin 2048) (d : Fin 64) :
    V m c main_v7 (ix3 (pair b h) n d) = m ((c : Thread nD τ).loc main_arg1) (ix3 b n (col h d)) :=
  (congrFun (V_key m c) (ix3 (pair b h) n d)).trans (split_apply _ _ _ _ b h n d)

theorem V_value_at (c : Dev nD) (b : Fin 2) (h : Fin 8) (n : Fin 2048) (d : Fin 64) :
    V m c main_v11 (ix3 (pair b h) n d) = m ((c : Thread nD τ).loc main_arg2) (ix3 b n (col h d)) :=
  (congrFun (V_value m c) (ix3 (pair b h) n d)).trans (split_apply _ _ _ _ b h n d)

/-- The head-major result at `(8b + h, n, d)` is the attention entry `(b, h, n, d)` of the arguments. -/
theorem headArr_at (c : Dev nD) (b : Fin 2) (h : Fin 8) (n : Fin 2048) (d : Fin 64) :
    headArr (V m c main_v3) (V m c main_v7) (V m c main_v11) (ix3 (pair b h) n d)
      = headAfter (m ((c : Thread nD τ).loc main_arg0)) (m ((c : Thread nD τ).loc main_arg1)) (m ((c : Thread nD τ).loc main_arg2)) b h n d := by
  unfold headArr headAfter qrow keys vals
  show Softmax.attnAfter negInf (Softmax.scores scale (fun dd : Fin 64 => V m c main_v3 (ix3 (pair b h) n dd))
      (fun (j : Fin 2048) (dd : Fin 64) => V m c main_v7 (ix3 (pair b h) j dd))) (fun j : Fin 2048 => V m c main_v11 (ix3 (pair b h) j d)) = _
  have hQ : (fun dd : Fin 64 => V m c main_v3 (ix3 (pair b h) n dd))
      = fun dd : Fin 64 => m ((c : Thread nD τ).loc main_arg0) (ix3 b n (col h dd)) := funext fun dd => V_query_at m c b h n dd
  have hK : (fun (j : Fin 2048) (dd : Fin 64) => V m c main_v7 (ix3 (pair b h) j dd))
      = fun (j : Fin 2048) (dd : Fin 64) => m ((c : Thread nD τ).loc main_arg1) (ix3 b j (col h dd)) :=
    funext fun j => funext fun dd => V_key_at m c b h j dd
  have hV : (fun j : Fin 2048 => V m c main_v11 (ix3 (pair b h) j d))
      = fun j : Fin 2048 => m ((c : Thread nD τ).loc main_arg2) (ix3 b j (col h d)) := funext fun j => V_value_at m c b h j d
  rw [hQ, hK, hV]

/-- The lines after the region merge the heads of the array the region left. -/
theorem tail_eq (c : Dev nD) : Pipeline.afterTail₀ cfgs (dats m) 0 (V0 m) [hostOps1] c main_v15
    = shapeCast S2x2048x512 (transpose S2x2048x8x64 [0, 2, 1, 3] (shapeCast S2x8x2048x64
        (headArr (V m c main_v3) (V m c main_v7) (V m c main_v11) : FVec Ideal S16x2048x64 .f32)
        shapeCasts_S16x2048x64_S2x8x2048x64) transposes_S2x8x2048x64_S2x2048x8x64_0_2_1_3) shapeCasts_S2x2048x8x64_S2x2048x512 := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.tc.devRef main_v12)
      = headArr (V m c main_v3) (V m c main_v7) (V m c main_v11) :=
    (Pipeline.withArrays_arr spec0 launch0.win.arr_inj c (V0 m c) (fun w => (dats m 0 c).arrAt w (cfgs 0).N) 3).trans (final m c)
  rw [hw]
  rfl

/-- The kernel's result array is the attention array of the three arguments. -/
theorem result_eq (c : Dev nD) : Pipeline.afterTail₀ cfgs (dats m) 0 (V0 m) [hostOps1] c main_v15
    = Attn.result (m ((c : Thread nD τ).loc main_arg0)) (m ((c : Thread nD τ).loc main_arg1)) (m ((c : Thread nD τ).loc main_arg2)) := by
  rw [tail_eq]
  funext i
  obtain ⟨b, n, cc, rfl⟩ : ∃ (b : Fin 2) (n : Fin 2048) (cc : Fin 512), i = ix3 b n cc := ⟨i 0, i 1, i 2, eq_ix3 i⟩
  rw [← col_headOf_featOf cc, result_apply]
  exact (merge_apply _ _ _ _ b n (headOf cc) (featOf cc)).trans (headArr_at m c b (headOf cc) n (featOf cc))

/-- THE KERNEL'S RUN: every weakly fair execution terminates with the result array at the attention array of the
    arguments, and the arguments unchanged. -/
theorem run : θ_run defs (onTc (τ := τ) (main (F := Ideal))) ⟨m, fun _ => 0, ρ⟩ fun r => ∀ c : Dev nD,
      r.2.mem ((c.tc : Thread nD τ).loc main_v15)
        = Attn.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.Finite.lean ====
/-
  The precondition, read back: every entry of the three arguments is a real number.

  The precondition is the conjunction of three `all (|x| < +∞)`.  A conjunction of bits that is one has both bits one; an
  `all` that is one has a one at every entry; and `|x| = max x (-x)` below `+∞` leaves neither `+∞` (where `x` itself
  is not below) nor `-∞` (where `-x` is not), so `x` is a real number.
-/
import proofs.«177805_j21045339750416_2_alg».proof.Pre_finite_inputs
import proofs.«177805_j21045339750416_2_alg».proof.Proof.Consts
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value compares below `+∞` is a real number. -/
theorem real_of_abs_lt (x : EReal) (h : Ideal.cmp .olt (max x (-x)) ⊤ = 1#1) : ∃ r : ℝ, x = (r : EReal) := by
  have hlt : max x (-x) < ⊤ := by
    by_contra hn
    unfold Ideal.cmp at h
    simp [hn] at h
  induction x using EReal.rec with
  | bot => simp at hlt
  | top => simp at hlt
  | coe r => exact ⟨r, rfl⟩

variable [Facts]

/-- Under the precondition the three arguments are arrays of real numbers. -/
theorem real_of_pre (x0 x1 x2 : FVec Ideal S2x2048x512 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, hc⟩ := IntOp.andi_eq_one.1 h0
  obtain ⟨ha, hb⟩ := IntOp.andi_eq_one.1 h01
  refine ⟨fun i => ?_, fun i => ?_, fun i => ?_⟩
  · have e : Ideal.cmp .olt (max (x0 i) (-(x0 i))) (Ideal.ofBits .f32 0x7F800000#32) = 1#1 :=
      Host.reduce_andi_all _ _ _ _ _ ha i
    rw [Consts.ofBits_pos_inf] at e
    exact real_of_abs_lt _ e
  · have e : Ideal.cmp .olt (max (x1 i) (-(x1 i))) (Ideal.ofBits .f32 0x7F800000#32) = 1#1 :=
      Host.reduce_andi_all _ _ _ _ _ hb i
    rw [Consts.ofBits_pos_inf] at e
    exact real_of_abs_lt _ e
  · have e : Ideal.cmp .olt (max (x2 i) (-(x2 i))) (Ideal.ofBits .f32 0x7F800000#32) = 1#1 :=
      Host.reduce_andi_all _ _ _ _ _ hc i
    rw [Consts.ofBits_pos_inf] at e
    exact real_of_abs_lt _ e

end Cert.Pre_finite_inputs.Finite

end
-- ==== Proof.lean ====
/-
  Multi-head softmax attention: a tiled kernel against the plain formula.

  Both programs take query, key and value arrays `[2, 2048, 512]` (batch × position × 8 heads of 64 features) and return,
  at `(b, n, 64h + d)`, the softmax-weighted sum over the key positions `j` of `value (b, j, 64h + d)`, the weight of `j`
  being `exp (s j − max s)` with `s j = (∑ dd, query (b, n, 64h + dd) · key (b, j, 64h + dd)) / 8`.

  The kernel splits the heads, runs over (batch, head) pairs and halves of the query positions with the pair's whole
  key and value arrays resident, handles 256 query rows at a time, and divides the weighted sum of the values by the sum
  of the weights AFTER summing.  The reference divides every weight by the sum of the weights BEFORE summing.  Over real
  scores and values the two agree, because then the maximum is real, the weights are positive reals, their sum is a
  positive real, and division by it distributes over the sum; over the extended reals in general it need not, so this
  is where the precondition (every input entry is finite) is used.  The rest is indexing: the head split and merge keep
  row-major positions or exchange two coordinates, the 32 output blocks tile the head-major array, and the four 256-row
  tiles of a block are restrictions of one function of the block index.  Changes of float format are the identity on the
  extended reals, and a matrix product into a zero accumulator is a plain sum.

  The three frames: the kernel's two are the generated frame certificates; the reference's is its generated run with the
  result dropped.  The kernel read over the extended reals is the kernel's own text: no operation was rewritten.
-/
import proofs.«177805_j21045339750416_2_alg».proof.Defs
import proofs.«177805_j21045339750416_2_alg».proof.Proof.Gen.Kernel
import proofs.«177805_j21045339750416_2_alg».proof.Proof.Gen.Kernel.Skeleton
import proofs.«177805_j21045339750416_2_alg».proof.Proof.Gen.Kernel.Launch
import proofs.«177805_j21045339750416_2_alg».proof.Proof.Gen.Kernel.Points
import proofs.«177805_j21045339750416_2_alg».proof.Proof.Gen.Kernel.Frame
import proofs.«177805_j21045339750416_2_alg».proof.Proof.Gen.KernelIdeal
import proofs.«177805_j21045339750416_2_alg».proof.Proof.Gen.KernelIdeal.Skeleton
import proofs.«177805_j21045339750416_2_alg».proof.Proof.Gen.KernelIdeal.Launch
import proofs.«177805_j21045339750416_2_alg».proof.Proof.Gen.KernelIdeal.Points
import proofs.«177805_j21045339750416_2_alg».proof.Proof.Gen.KernelIdeal.Frame
import proofs.«177805_j21045339750416_2_alg».proof.Proof.Gen.ReferenceIdeal
import proofs.«177805_j21045339750416_2_alg».proof.Proof.Gen.ReferenceIdeal.Run
import proofs.«177805_j21045339750416_2_alg».proof.Proof.Gen.ReferenceIdeal.Read
import proofs.«177805_j21045339750416_2_alg».proof.Proof.Gen.Pre_finite_inputs
import proofs.«177805_j21045339750416_2_alg».proof.Proof.RefValue
import proofs.«177805_j21045339750416_2_alg».proof.Proof.KernelRun
import proofs.«177805_j21045339750416_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from finite arguments that agree, the kernel's result array and the reference's are the
    same attention array: the kernel's run ends there whatever the arguments, and the reference's does because the
    arguments are finite. -/
theorem algebraic : Cert.algebraic_KernelIdeal_ReferenceIdeal := by
  intro m ρ m' ρ' hpre hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite_inputs.Finite.real_of_pre _ _ _ (hpre c)
  rw [Cert.ReferenceIdeal.Read.val_main_v22_eq, (hagree c).1, (hagree c).2.1, (hagree c).2.2]
  exact Cert.ReferenceIdeal.RefValue.result_eq _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
